-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S128x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x128 .f32) (main_arg3 : FVec F S128 .f32) (main_arg4 : FVec F S128x64 .f32) (main_arg5 : FVec F S64 .f32) (main_arg6 : FVec F S128x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S100000x128 : Shape := ⟨2, ![100000, 128]⟩
abbrev S10000x64 : Shape := ⟨2, ![10000, 64]⟩
abbrev S10000x128 : Shape := ⟨2, ![10000, 128]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S1100000x64 : Shape := ⟨2, ![1100000, 64]⟩
abbrev S1x64 : Shape := ⟨2, ![1, 64]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩
abbrev S20000x128 : Shape := ⟨2, ![20000, 128]⟩
abbrev S20000x1 : Shape := ⟨2, ![20000, 1]⟩

abbrev nBuf : Space → Nat
  | .hbm => 143
  | .vmem => 26
  | .smem => 0
  | _ => 0

abbrev hbmTy0_0 (i : Nat) : BufTy := match i % 128 with
  | 0 => ⟨S100000x64, .f32⟩
  | 1 => ⟨S2x1000000, .i32⟩
  | 2 => ⟨S64x128, .f32⟩
  | 3 => ⟨S128, .f32⟩
  | 4 => ⟨S128x64, .f32⟩
  | 5 => ⟨S64, .f32⟩
  | 6 => ⟨S128x1, .f32⟩
  | 7 => ⟨S1, .f32⟩
  | 8 => ⟨S1x1000000, .i32⟩
  | 9 => ⟨S1000000, .i32⟩
  | 10 => ⟨S1x1000000, .i32⟩
  | 11 => ⟨S1000000, .i32⟩
  | 12 => ⟨S100000x128, .f32⟩
  | 13 => ⟨S100000, .i32⟩
  | 14 => ⟨S1100000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S_, .i32⟩
  | 50 => ⟨S1100000, .i32⟩
  | 51 => ⟨S1100000, .i1⟩
  | 52 => ⟨S_, .i32⟩
  | 53 => ⟨S1100000, .i32⟩
  | 54 => ⟨S1100000, .i32⟩
  | 55 => ⟨S1100000, .i32⟩
  | 56 => ⟨S1100000x1, .i32⟩
  | 57 => ⟨S1100000x128, .f32⟩
  | 58 => ⟨S1100000x1, .f32⟩
  | 59 => ⟨S1100000x128, .f32⟩
  | 60 => ⟨S1100000x128, .f32⟩
  | 61 => ⟨S_, .f32⟩
  | 62 => ⟨S100000x128, .f32⟩
  | 63 => ⟨S1100000x1, .i32⟩
  | 64 => ⟨S100000x128, .f32⟩
  | 65 => ⟨S1x128, .f32⟩
  | 66 => ⟨S100000x128, .f32⟩
  | 67 => ⟨S100000x64, .f32⟩
  | 68 => ⟨S100000, .i32⟩
  | 69 => ⟨S1100000, .i32⟩
  | 70 => ⟨S1100000, .i32⟩
  | 71 => ⟨S_, .f32⟩
  | 72 => ⟨S1100000, .f32⟩
  | 73 => ⟨S_, .f32⟩
  | 74 => ⟨S100000, .f32⟩
  | 75 => ⟨S1100000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1100000, .i32⟩
  | 87 => ⟨S1100000, .i1⟩
  | 88 => ⟨S_, .i32⟩
  | 89 => ⟨S1100000, .i32⟩
  | 90 => ⟨S1100000, .i32⟩
  | 91 => ⟨S1100000, .i32⟩
  | 92 => ⟨S1100000x1, .i32⟩
  | 93 => ⟨S1100000, .f32⟩
  | 94 => ⟨S_, .i32⟩
  | 95 => ⟨S1100000, .i32⟩
  | 96 => ⟨S1100000, .i1⟩
  | 97 => ⟨S_, .i32⟩
  | 98 => ⟨S1100000, .i32⟩
  | 99 => ⟨S1100000, .i32⟩
  | 100 => ⟨S1100000, .i32⟩
  | 101 => ⟨S1100000x1, .i32⟩
  | 102 => ⟨S1100000, .f32⟩
  | 103 => ⟨S1100000, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000x64, .f32⟩
  | 113 => ⟨S1100000x1, .f32⟩
  | 114 => ⟨S1100000x64, .f32⟩
  | 115 => ⟨S1100000x64, .f32⟩
  | 116 => ⟨S_, .f32⟩
  | 117 => ⟨S100000x64, .f32⟩
  | 118 => ⟨S1100000x1, .i32⟩
  | 119 => ⟨S100000x64, .f32⟩
  | 120 => ⟨S1x64, .f32⟩
  | 121 => ⟨S100000x64, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x64, .f32⟩

abbrev hbmTy0_1 (i : Nat) : BufTy := match i % 128 with
  | 0 => ⟨S1000000, .i32⟩
  | 1 => ⟨S1000000x1, .i32⟩
  | 2 => ⟨S1000000x64, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x64, .f32⟩
  | 12 => ⟨S1000000x128, .f32⟩
  | 13 => ⟨S1x1, .f32⟩
  | 14 => ⟨S1000000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S20000x128, .f32⟩
  | .local _ .vmem, ⟨21, _⟩ => ⟨S20000x128, .f32⟩
  | .local _ .vmem, ⟨22, _⟩ => ⟨S128x1, .f32⟩
  | .local _ .vmem, ⟨23, _⟩ => ⟨S1x1, .f32⟩
  | .local _ .vmem, ⟨24, _⟩ => ⟨S20000x1, .f32⟩
  | .local _ .vmem, ⟨25, _⟩ => ⟨S20000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_c_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_22 : Ref sig .tc := ⟨.hbm, 131, rfl⟩
abbrev main_v95 : Ref sig .tc := ⟨.hbm, 132, rfl⟩
abbrev main_v96 : Ref sig .tc := ⟨.hbm, 133, rfl⟩
abbrev main_c_23 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S20000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  shapeCasts_S1_S1x1 : S1.ShapeCasts S1x1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  dot_S10000x64_S64x128_S10000x128_1_0_0_1_n_n_wf : DotDims.WF S10000x64 S64x128 S10000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S1000000x1_S1000000x64_1_0_n_n_0_1_164_wf : GatherDims.WF S100000x64 S1000000x1 S1000000x64 [1] [0] [] [0] [] 1 ![1, 64]
  dot_S20000x128_S128x1_S20000x1_1_0_0_1_n_n_wf : DotDims.WF S20000x128 S128x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x128.size a ≤ S1000000x128.size a
  hwx4_0 : ∀ i : grid4.Coords, EltTy.bits .f32 = 32 ∨ (Rect.block (s := S1000000x128) S20000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S20000x1.size a ≤ S1000000x1.size a
  hwx4_3 : ∀ i : grid4.Coords, EltTy.bits .f32 = 32 ∨ (Rect.block (s := S1000000x1) S20000x1.size (cc4_transform_3 i) (hinb4_3 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v102) S20000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S20000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S100000x128 : Shape := ⟨2, ![100000, 128]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S1100000x64 : Shape := ⟨2, ![1100000, 64]⟩
abbrev S1x64 : Shape := ⟨2, ![1, 64]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S100000x64, .f32⟩
  | 1 => ⟨S2x1000000, .i32⟩
  | 2 => ⟨S64x128, .f32⟩
  | 3 => ⟨S128, .f32⟩
  | 4 => ⟨S128x64, .f32⟩
  | 5 => ⟨S64, .f32⟩
  | 6 => ⟨S128x1, .f32⟩
  | 7 => ⟨S1, .f32⟩
  | 8 => ⟨S1x1000000, .i32⟩
  | 9 => ⟨S1000000, .i32⟩
  | 10 => ⟨S1x1000000, .i32⟩
  | 11 => ⟨S1000000, .i32⟩
  | 12 => ⟨S100000x128, .f32⟩
  | 13 => ⟨S100000, .i32⟩
  | 14 => ⟨S1100000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S_, .i32⟩
  | 50 => ⟨S1100000, .i32⟩
  | 51 => ⟨S1100000, .i1⟩
  | 52 => ⟨S_, .i32⟩
  | 53 => ⟨S1100000, .i32⟩
  | 54 => ⟨S1100000, .i32⟩
  | 55 => ⟨S1100000, .i32⟩
  | 56 => ⟨S1100000x1, .i32⟩
  | 57 => ⟨S1100000x128, .f32⟩
  | 58 => ⟨S1100000x1, .f32⟩
  | 59 => ⟨S1100000x128, .f32⟩
  | 60 => ⟨S1100000x128, .f32⟩
  | 61 => ⟨S_, .f32⟩
  | 62 => ⟨S100000x128, .f32⟩
  | 63 => ⟨S1100000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S100000, .i32⟩
  | 73 => ⟨S1100000, .i32⟩
  | 74 => ⟨S1100000, .i32⟩
  | 75 => ⟨S_, .f32⟩
  | 76 => ⟨S1100000, .f32⟩
  | 77 => ⟨S_, .f32⟩
  | 78 => ⟨S100000, .f32⟩
  | 79 => ⟨S1100000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1100000, .i32⟩
  | 91 => ⟨S1100000, .i1⟩
  | 92 => ⟨S_, .i32⟩
  | 93 => ⟨S1100000, .i32⟩
  | 94 => ⟨S1100000, .i32⟩
  | 95 => ⟨S1100000, .i32⟩
  | 96 => ⟨S1100000x1, .i32⟩
  | 97 => ⟨S1100000, .f32⟩
  | 98 => ⟨S_, .i32⟩
  | 99 => ⟨S1100000, .i32⟩
  | 100 => ⟨S1100000, .i1⟩
  | 101 => ⟨S_, .i32⟩
  | 102 => ⟨S1100000, .i32⟩
  | 103 => ⟨S1100000, .i32⟩
  | 104 => ⟨S1100000, .i32⟩
  | 105 => ⟨S1100000x1, .i32⟩
  | 106 => ⟨S1100000, .f32⟩
  | 107 => ⟨S1100000, .f32⟩
  | 108 => ⟨S_, .i32⟩
  | 109 => ⟨S1100000, .i32⟩
  | 110 => ⟨S1100000, .i1⟩
  | 111 => ⟨S_, .i32⟩
  | 112 => ⟨S1100000, .i32⟩
  | 113 => ⟨S1100000, .i32⟩
  | 114 => ⟨S1100000, .i32⟩
  | 115 => ⟨S1100000x1, .i32⟩
  | 116 => ⟨S1100000x64, .f32⟩
  | 117 => ⟨S1100000x1, .f32⟩
  | 118 => ⟨S1100000x64, .f32⟩
  | 119 => ⟨S1100000x64, .f32⟩
  | 120 => ⟨S_, .f32⟩
  | 121 => ⟨S100000x64, .f32⟩
  | 122 => ⟨S1100000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x64, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x64, .f32⟩
  | 20 => ⟨S1000000x128, .f32⟩
  | 21 => ⟨S1000000x1, .f32⟩
  | 22 => ⟨S1x1, .f32⟩
  | 23 => ⟨S1000000x1, .f32⟩
  | 24 => ⟨S1000000x1, .f32⟩
  | 25 => ⟨S1000000x1, .f32⟩
  | 26 => ⟨S1000000x1, .f32⟩
  | 27 => ⟨S_, .f32⟩
  | 28 => ⟨S1000000x1, .f32⟩
  | 29 => ⟨S1000000x1, .f32⟩
  | 30 => ⟨S_, .f32⟩
  | 31 => ⟨S1000000x1, .f32⟩
  | 32 => ⟨S1000000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_c_20 : Ref sig .tc := ⟨.hbm, 130, rfl⟩
abbrev main_v92 : Ref sig .tc := ⟨.hbm, 131, rfl⟩
abbrev main_v93 : Ref sig .tc := ⟨.hbm, 132, rfl⟩
abbrev main_c_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_22 : Ref sig .tc := ⟨.hbm, 139, rfl⟩
abbrev main_v99 : Ref sig .tc := ⟨.hbm, 140, rfl⟩
abbrev main_v100 : Ref sig .tc := ⟨.hbm, 141, rfl⟩
abbrev main_c_23 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_24 : Ref sig .tc := ⟨.hbm, 155, rfl⟩
abbrev main_v113 : Ref sig .tc := ⟨.hbm, 156, rfl⟩
abbrev main_v114 : Ref sig .tc := ⟨.hbm, 157, rfl⟩
abbrev main_cst_25 : Ref sig .tc := ⟨.hbm, 158, rfl⟩
abbrev main_v115 : Ref sig .tc := ⟨.hbm, 159, rfl⟩
abbrev main_v116 : Ref sig .tc := ⟨.hbm, 160, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  dot_S100000x64_S64x128_S100000x128_1_0_0_1_n_n_wf : DotDims.WF S100000x64 S64x128 S100000x128 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S1000000x1_S1000000x64_1_0_n_n_0_1_164_wf : GatherDims.WF S100000x64 S1000000x1 S1000000x64 [1] [0] [] [0] [] 1 ![1, 64]
  dot_S1000000x128_S128x1_S1000000x1_1_0_0_1_n_n_wf : DotDims.WF S1000000x128 S128x1 S1000000x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.RunValue.lean ====
/-
  The idealized kernel's run with its RESULT named.  The program is five pipelined regions among stretches of host
  operations; the generated frame folds the buffer contents through those thirteen segments (`Gen.W0` … `Gen.W13`)
  and reads the argument arrays off the last fold.  Read at the result buffer instead, the same final state gives the
  result array: it is `Gen.W13` at the result's reference.  What that fold holds is computed, segment by segment,
  in the sibling modules.
-/
import proofs.«127963_j3255585210493_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the last
    fold's contents there, and every argument array ends as launched. -/
theorem run : θ_run defs (onTc (τ := τ) (main (F := F))) ⟨m, fun _ => 0, ρ⟩ (fun r => ∀ c : Dev nD,
      r.2.mem ((c.tc : Thread nD τ).loc main_v104) = W13 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v104 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.RunValue

end
-- ==== Proof.LibDotSum.lean ====
/-
  A matrix product with one contracted axis, as a plain sum over that axis.
-/
import Idealize.ShloMosaic.PureOps.Ideal
import Idealize.ShloMosaic.PureOps.Ideal.Laws
import Idealize.ShloMosaic.Lib.ValueIdx

noncomputable section

namespace Idealize.ShloMosaic.DotSum

open Idealize.ShloMosaic Idealize.ShloMosaic.ValueIdx

/-- For dimension numbers that contract the one shared axis of an `[M, K]` and a `[K, N]` operand — the left
    operand read at `(row, q)`, the right at `(q, column)` — the sum of products over the contraction index is
    the sum over `k < K` of `x (row, k) · w (k, column)`. -/
theorem sum_contr_eq {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (x : (⟨2, ![M, K]⟩ : Shape).Idx → EReal) (w : (⟨2, ![K, N]⟩ : Shape).Idx → EReal)
    (j : (⟨2, ![M, N]⟩ : Shape).Idx) :
    ∑ q : D.contr.Idx, x (D.lhsIdx j q) * w (D.rhsIdx j q) = ∑ k : Fin K, x (ix2 (j 0) k) * w (ix2 k (j 1)) := by
  rw [← Equiv.sum_comp (contrEquiv1 D K hr hs).symm (fun q => x (D.lhsIdx j q) * w (D.rhsIdx j q))]
  refine Finset.sum_congr rfl fun k _ => ?_
  have e := contrEquiv1_symm_val D K hr hs k
  congr 1
  · refine congrArg x (funext fun a => Fin.ext ?_)
    match a with
    | ⟨0, _⟩ => exact hl0 j _
    | ⟨1, _⟩ => exact (hl1 j _).trans e
  · refine congrArg w (funext fun a => Fin.ext ?_)
    match a with
    | ⟨0, _⟩ => exact (hr0 j _).trans e
    | ⟨1, _⟩ => exact hr1 j _

end Idealize.ShloMosaic.DotSum

end
-- ==== Proof.Spec.lean ====
/-
  The three whole-array functions this certificate is about, on the extended reals, and what each of the programs'
  operations is in their terms.

  * `matProd x w` — rows times columns: entry `(r, c)` is the sum over `k` of `x (r, k) · w (k, c)`.
  * `biasRelu a b` — a row vector `b` (kept as a `[1, N]` array) added to every row of `a`, then the maximum with zero.
  * `sigm e w b` — the logistic function of `e · w + b`, `w` one column and `b` one number kept as a `[1, 1]` array.

  A kernel block computes the first by one matrix product into a zero accumulator and the reference by one `dot_general`;
  both are the plain sum (no rounding, no order).  The second and third are pointwise in the row index, so a block of rows
  of the result is the function of the same block of rows of the operand.  The logistic function IS `1 / (1 + e^(-x))` on
  the extended reals, which is how the reference spells it.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«127963_j3255585210493_1_alg».proof.Proof.LibDotSum

noncomputable section

namespace Cert.Gcn

open Idealize.ShloMosaic Idealize.ShloMosaic.ValueIdx

/-- The zero every maximum is taken with: the word of `0.0`, read as an extended real. -/
abbrev zeroLit : EReal := Ideal.ofBits .f32 0x00000000#32

/-- Rows times columns. -/
def matProd {M K N : Nat} (x : (⟨2, ![M, K]⟩ : Shape).Idx → EReal) (w : (⟨2, ![K, N]⟩ : Shape).Idx → EReal) :
    (⟨2, ![M, N]⟩ : Shape).Idx → EReal := fun j => ∑ k : Fin K, x (ix2 (j 0) k) * w (ix2 k (j 1))

/-- A row added to every row, then the maximum with zero. -/
def biasRelu {M N : Nat} (a : (⟨2, ![M, N]⟩ : Shape).Idx → EReal) (b : (⟨2, ![1, N]⟩ : Shape).Idx → EReal) :
    (⟨2, ![M, N]⟩ : Shape).Idx → EReal := fun j => max (a j + b (ix2 (0 : Fin 1) (j 1))) zeroLit

/-- The logistic function of a one-column product plus one number. -/
def sigm {M K : Nat} (e : (⟨2, ![M, K]⟩ : Shape).Idx → EReal) (w : (⟨2, ![K, 1]⟩ : Shape).Idx → EReal)
    (b : (⟨2, ![1, 1]⟩ : Shape).Idx → EReal) : (⟨2, ![M, 1]⟩ : Shape).Idx → EReal :=
  fun j => Ideal.logistic (matProd e w j + b (ix2 (0 : Fin 1) (0 : Fin 1)))

theorem matProd_apply {M K N : Nat} (x : (⟨2, ![M, K]⟩ : Shape).Idx → EReal) (w : (⟨2, ![K, N]⟩ : Shape).Idx → EReal)
    (j : (⟨2, ![M, N]⟩ : Shape).Idx) : matProd x w j = ∑ k : Fin K, x (ix2 (j 0) k) * w (ix2 k (j 1)) := rfl

theorem biasRelu_apply {M N : Nat} (a : (⟨2, ![M, N]⟩ : Shape).Idx → EReal) (b : (⟨2, ![1, N]⟩ : Shape).Idx → EReal)
    (j : (⟨2, ![M, N]⟩ : Shape).Idx) : biasRelu a b j = max (a j + b (ix2 (0 : Fin 1) (j 1))) zeroLit := rfl

theorem sigm_apply {M K : Nat} (e : (⟨2, ![M, K]⟩ : Shape).Idx → EReal) (w : (⟨2, ![K, 1]⟩ : Shape).Idx → EReal)
    (b : (⟨2, ![1, 1]⟩ : Shape).Idx → EReal) (j : (⟨2, ![M, 1]⟩ : Shape).Idx) :
    sigm e w b j = Ideal.logistic (matProd e w j + b (ix2 (0 : Fin 1) (0 : Fin 1))) := rfl

/-! ## The matrix product: a kernel's, into a zero accumulator, and the host's -/

section Dot

variable {M K N : Nat} (D : DotDims ⟨2, ![M, K]⟩ ⟨2, ![K, N]⟩ ⟨2, ![M, N]⟩)
  (hr : D.contr.rank = 1) (hs : D.contr.size ⟨0, by omega⟩ = K)
  (hl0 : ∀ (j : (⟨2, ![M, N]⟩ : Shape).Idx) (q : D.contr.Idx), (D.lhsIdx j q 0).val = (j 0).val)
  (hl1 : ∀ (j : (⟨2, ![M, N]⟩ : Shape).Idx) (q : D.contr.Idx), (D.lhsIdx j q 1).val = (q ⟨0, by omega⟩).val)
  (hr0 : ∀ (j : (⟨2, ![M, N]⟩ : Shape).Idx) (q : D.contr.Idx), (D.rhsIdx j q 0).val = (q ⟨0, by omega⟩).val)
  (hr1 : ∀ (j : (⟨2, ![M, N]⟩ : Shape).Idx) (q : D.contr.Idx), (D.rhsIdx j q 1).val = (j 1).val)

include hr hs hl0 hl1 hr0 hr1

/-- A kernel's matrix product into the zero accumulator is rows times columns, whatever formats the operands were
    narrowed to (a change of format is the identity on the extended reals). -/
theorem matmul_zero_eq {φ₁ φ₂ : FTy} (x : FVec Ideal ⟨2, ![M, K]⟩ φ₁) (w : FVec Ideal ⟨2, ![K, N]⟩ φ₂) :
    matmul D none x w (constant ⟨2, ![M, N]⟩ .f32 0x00000000#32) = matProd x w := by
  funext j
  refine (Ideal.matmul_constant_zero_apply D none x w j).trans ?_
  exact DotSum.sum_contr_eq D hr hs hl0 hl1 hr0 hr1 x w j

/-- The host's `dot_general` is the same sum. -/
theorem dotGeneral_eq {φ₁ φ₂ : FTy} (x : FVec Ideal ⟨2, ![M, K]⟩ φ₁) (w : FVec Ideal ⟨2, ![K, N]⟩ φ₂) :
    Host.dotGeneral D none x w = matProd x w := by
  funext j
  refine (Ideal.dotGeneral_apply D none .single x w j).trans ?_
  exact DotSum.sum_contr_eq D hr hs hl0 hl1 hr0 hr1 x w j

end Dot

/-! ## The row bias and the maximum with zero -/

/-- The kernel's spelling: the `[1, N]` row broadcast over the rows, added, and the maximum with the splat of `0.0`. -/
theorem kernel_biasRelu {M N : Nat} (a : FVec Ideal ⟨2, ![M, N]⟩ .f32) (b : FVec Ideal ⟨2, ![1, N]⟩ .f32)
    (ha : (⟨2, ![M, N]⟩ : Shape).ShapeCasts ⟨2, ![M, N]⟩) (hb : (⟨2, ![1, N]⟩ : Shape).ShapeCasts ⟨2, ![1, N]⟩)
    (hbc : (⟨2, ![1, N]⟩ : Shape).Broadcasts ⟨2, ![M, N]⟩) :
    maximumf (addf (shapeCast ⟨2, ![M, N]⟩ a ha) (broadcastTo ⟨2, ![M, N]⟩ (shapeCast ⟨2, ![1, N]⟩ b hb) hbc))
      (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self]
  show max (a (ix2 p q) + broadcastTo ⟨2, ![M, N]⟩ b hbc (ix2 p q)) zeroLit = max (a (ix2 p q) + b (ix2 (0 : Fin 1) q)) zeroLit
  rw [broadcastTo_1b_ab_apply]

/-- The reference's spelling: the `[N]` vector broadcast to `[1, N]` and then over the rows, added, and the maximum with
    the broadcast of the constant `0.0` — the same function of the vector reshaped to `[1, N]`. -/
theorem host_biasRelu {M N : Nat} (a : FVec Ideal ⟨2, ![M, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 v)))
      (broadcastInDim ⟨2, ![M, N]⟩ ![] h0 (constant (F := Ideal) ⟨0, ![]⟩ .f32 0x00000000#32))
      = biasRelu a (shapeCast ⟨2, ![1, N]⟩ v hc) := by
  funext j
  obtain ⟨p, q, rfl⟩ : ∃ (p : Fin M) (q : Fin N), j = ix2 p q := ⟨j 0, j 1, eq_ix2 j⟩
  show max (a (ix2 p q) + broadcastInDim ⟨2, ![M, N]⟩ ![0, 1] h2 (broadcastInDim ⟨2, ![1, N]⟩ ![1] h1 v) (ix2 p q))
      (broadcastInDim ⟨2, ![M, N]⟩ ![] h0 (constant (F := Ideal) ⟨0, ![]⟩ .f32 0x00000000#32) (ix2 p q))
    = max (a (ix2 p q) + shapeCast ⟨2, ![1, N]⟩ v hc (ix2 (0 : Fin 1) q)) zeroLit
  have e1 : broadcastInDim ⟨2, ![M, N]⟩ ![0, 1] h2 (broadcastInDim ⟨2, ![1, N]⟩ ![1] h1 v) (ix2 p q) = v (ix1 q) := by
    by_cases hN : N = 1
    · subst hN
      have hq : q = 0 := Fin.ext (by have := q.isLt; omega)
      subst hq
      refine (broadcastInDim_apply _ h2 _ (ix2 p (0 : Fin 1)) (ix2 (0 : Fin 1) (0 : Fin 1)) (fun ax => ?_)).trans ?_
      · match ax with
        | ⟨0, _⟩ => exact (if_pos rfl).symm
        | ⟨1, _⟩ => exact (if_pos rfl).symm
      · exact broadcastInDim_apply _ h1 v _ (ix1 (0 : Fin 1)) (fun ax => by
          match ax with
          | ⟨0, _⟩ => exact (if_pos rfl).symm)
    · refine (broadcastInDim_apply _ h2 _ (ix2 p q) (ix2 (0 : Fin 1) q) (fun ax => ?_)).trans ?_
      · match ax with
        | ⟨0, _⟩ => exact (if_pos rfl).symm
        | ⟨1, _⟩ => exact (if_neg hN).symm
      · exact broadcastInDim_apply _ h1 v _ (ix1 q) (fun ax => by
          match ax with
          | ⟨0, _⟩ => exact (if_neg hN).symm)
  have e2 : shapeCast ⟨2, ![1, N]⟩ v hc (ix2 (0 : Fin 1) q) = v (ix1 q) := shapeCast_a_1a_apply v hc 0 q
  rw [e1, e2]
  rfl

/-! ## The classifier: the logistic function of a product plus a number -/

/-- The kernel's spelling. -/
theorem kernel_sigm {M K : Nat} (D : DotDims ⟨2, ![M, K]⟩ ⟨2, ![K, 1]⟩ ⟨2, ![M, 1]⟩)
    (hr : D.contr.rank = 1) (hs : D.contr.size ⟨0, by omega⟩ = K)
    (hl0 : ∀ (j : (⟨2, ![M, 1]⟩ : Shape).Idx) (q : D.contr.Idx), (D.lhsIdx j q 0).val = (j 0).val)
    (hl1 : ∀ (j : (⟨2, ![M, 1]⟩ : Shape).Idx) (q : D.contr.Idx), (D.lhsIdx j q 1).val = (q ⟨0, by omega⟩).val)
    (hr0 : ∀ (j : (⟨2, ![M, 1]⟩ : Shape).Idx) (q : D.contr.Idx), (D.rhsIdx j q 0).val = (q ⟨0, by omega⟩).val)
    (hr1 : ∀ (j : (⟨2, ![M, 1]⟩ : Shape).Idx) (q : D.contr.Idx), (D.rhsIdx j q 1).val = (j 1).val)
    {φ₁ φ₂ : FTy} (e : FVec Ideal ⟨2, ![M, K]⟩ φ₁) (w : FVec Ideal ⟨2, ![K, 1]⟩ φ₂) (b : FVec Ideal ⟨2, ![1, 1]⟩ .f32)
    (hb : (⟨2, ![1, 1]⟩ : Shape).ShapeCasts ⟨2, ![1, 1]⟩) (hbc : (⟨2, ![1, 1]⟩ : Shape).Broadcasts ⟨2, ![M, 1]⟩) :
    logistic (addf (matmul D none e w (constant ⟨2, ![M, 1]⟩ .f32 0x00000000#32))
      (broadcastTo ⟨2, ![M, 1]⟩ (shapeCast ⟨2, ![1, 1]⟩ b hb) hbc)) = sigm e w b := by
  rw [matmul_zero_eq D hr hs hl0 hl1 hr0 hr1 e w, shapeCast_self]
  funext j
  obtain ⟨p, q, rfl⟩ : ∃ (p : Fin M) (q : Fin 1), j = ix2 p q := ⟨j 0, j 1, eq_ix2 j⟩
  have hq : q = 0 := Fin.ext (by have := q.isLt; omega)
  subst hq
  show Ideal.logistic (matProd e w (ix2 p (0 : Fin 1)) + broadcastTo ⟨2, ![M, 1]⟩ b hbc (ix2 p (0 : Fin 1)))
    = Ideal.logistic (matProd e w (ix2 p (0 : Fin 1)) + b (ix2 (0 : Fin 1) (0 : Fin 1)))
  rw [broadcastTo_1b_ab_apply]

/-- The reference's spelling: one over one plus the exponential of the negated sum. -/
theorem host_sigm {M K : Nat} (D : DotDims ⟨2, ![M, K]⟩ ⟨2, ![K, 1]⟩ ⟨2, ![M, 1]⟩)
    (hr : D.contr.rank = 1) (hs : D.contr.size ⟨0, by omega⟩ = K)
    (hl0 : ∀ (j : (⟨2, ![M, 1]⟩ : Shape).Idx) (q : D.contr.Idx), (D.lhsIdx j q 0).val = (j 0).val)
    (hl1 : ∀ (j : (⟨2, ![M, 1]⟩ : Shape).Idx) (q : D.contr.Idx), (D.lhsIdx j q 1).val = (q ⟨0, by omega⟩).val)
    (hr0 : ∀ (j : (⟨2, ![M, 1]⟩ : Shape).Idx) (q : D.contr.Idx), (D.rhsIdx j q 0).val = (q ⟨0, by omega⟩).val)
    (hr1 : ∀ (j : (⟨2, ![M, 1]⟩ : Shape).Idx) (q : D.contr.Idx), (D.rhsIdx j q 1).val = (j 1).val)
    (e : FVec Ideal ⟨2, ![M, K]⟩ .f32) (w : FVec Ideal ⟨2, ![K, 1]⟩ .f32) (v : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![M, 1]⟩ ![0, 1])
    (h0 : (⟨0, ![]⟩ : Shape).BroadcastsInDim ⟨2, ![M, 1]⟩ ![])
    (hc : (⟨1, ![1]⟩ : Shape).ShapeCasts ⟨2, ![1, 1]⟩) :
    Host.divf (broadcastInDim ⟨2, ![M, 1]⟩ ![] h0 (constant (F := Ideal) ⟨0, ![]⟩ .f32 0x3F800000#32))
      (addf (broadcastInDim ⟨2, ![M, 1]⟩ ![] h0 (constant (F := Ideal) ⟨0, ![]⟩ .f32 0x3F800000#32))
        (Host.exp (Host.negf (addf (Host.dotGeneral D none e w)
          (broadcastInDim ⟨2, ![M, 1]⟩ ![0, 1] h2 (broadcastInDim ⟨2, ![1, 1]⟩ ![1] h1 v))))))
      = sigm e w (shapeCast ⟨2, ![1, 1]⟩ v hc) := by
  rw [dotGeneral_eq D hr hs hl0 hl1 hr0 hr1 e w]
  funext j
  have e1 : broadcastInDim ⟨2, ![M, 1]⟩ ![0, 1] h2 (broadcastInDim ⟨2, ![1, 1]⟩ ![1] h1 v) j = v (ix1 (0 : Fin 1)) := by
    refine (broadcastInDim_apply _ h2 _ j (ix2 (0 : Fin 1) (0 : Fin 1)) (fun ax => ?_)).trans ?_
    · match ax with
      | ⟨0, _⟩ => exact (if_pos rfl).symm
      | ⟨1, _⟩ => exact (if_pos rfl).symm
    · exact broadcastInDim_apply _ h1 v _ (ix1 (0 : Fin 1)) (fun ax => by
        match ax with
        | ⟨0, _⟩ => exact (if_pos rfl).symm)
  have e2 : shapeCast ⟨2, ![1, 1]⟩ v hc (ix2 (0 : Fin 1) (0 : Fin 1)) = v (ix1 (0 : Fin 1)) := shapeCast_a_1a_apply v hc 0 0
  have one : Ideal.ofBits .f32 0x3F800000#32 = (1 : EReal) := by
    simp [Ideal.ofBits, Ideal.ieee, -EReal.coe_mul]; norm_num
  show Ideal.div (Ideal.ofBits .f32 0x3F800000#32) (Ideal.ofBits .f32 0x3F800000#32
      + Ideal.exp (-(matProd e w j + broadcastInDim ⟨2, ![M, 1]⟩ ![0, 1] h2 (broadcastInDim ⟨2, ![1, 1]⟩ ![1] h1 v) j)))
    = Ideal.logistic (matProd e w j + shapeCast ⟨2, ![1, 1]⟩ v hc (ix2 (0 : Fin 1) (0 : Fin 1)))
  rw [e1, e2, one]
  rfl

end Cert.Gcn

end
-- ==== Proof.Region0.lean ====
/-
  The first region: `x · W1`, ten blocks of 10000 rows.  Each grid point loads 10000 rows of `x` and the whole of `W1`,
  multiplies them into a zero accumulator, and writes the 10000 rows of the result back; the blocks tile the result, so the
  array the region leaves is the product of the two arrays it found, entry by entry a sum over the 64 shared coordinates.
-/
import proofs.«127963_j3255585210493_1_alg».proof.Proof.Gen.KernelIdeal.Frame
import proofs.«127963_j3255585210493_1_alg».proof.Proof.Spec

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block's matrix product is rows times columns -/

abbrev D : DotDims S10000x64 S64x128 S10000x128 := dot_S10000x64_S64x128_S10000x128_1_0_0_1_n_n

theorem d_l0 (j : S10000x128.Idx) (q : D.contr.Idx) : (D.lhsIdx j q 0).val = (j 0).val := by
  unfold DotDims.lhsIdx
  rw [dif_neg (show ¬(0 : Fin S10000x64.rank) ∈ D.lhsBatch by decide), dif_pos (show (0 : Fin S10000x64.rank) ∈ D.lhsNonContracting by decide)]
  rfl
theorem d_l1 (j : S10000x128.Idx) (q : D.contr.Idx) : (D.lhsIdx j q 1).val = (q ⟨0, by decide⟩).val :=
  D.lhsIdx_val_of_single rfl j q
theorem d_r0 (j : S10000x128.Idx) (q : D.contr.Idx) : (D.rhsIdx j q 0).val = (q ⟨0, by decide⟩).val :=
  D.rhsIdx_val_of_single rfl j q
theorem d_r1 (j : S10000x128.Idx) (q : D.contr.Idx) : (D.rhsIdx j q 1).val = (j 1).val := by
  unfold DotDims.rhsIdx
  rw [dif_neg (show ¬(1 : Fin S64x128.rank) ∈ D.rhsBatch by decide), dif_pos (show (1 : Fin S64x128.rank) ∈ D.rhsNonContracting by decide)]
  rfl

/-- The body's one stored value: the product of the block of rows it loaded with the whole right operand. -/
theorem pay_eq (x0 : Vec Ideal S10000x64 .f32) (x1 : Vec Ideal S64x128 .f32) :
    k0_pay1 x0 x1 = matProd (M := 10000) (K := 64) (N := 128) x0 x1 := by
  unfold k0_pay1
  exact matmul_zero_eq D rfl rfl d_l0 d_l1 d_r0 d_r1 _ _

/-! ## From blocks of rows to the array -/

/-- The index maps over the grid: point `t` takes rows `[10000·t, 10000·t + 10000)` of the left operand and of the
    result, and the whole right operand. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two whole arrays as the region finds them. -/
theorem flushed_eq (c : Dev nD) (t : Fin cfg0.N) :
    (dat0 V c).flushed 2 t = ((cfg0.win 2).blk t).view.read (Elt Ideal)
      (matProd (M := 100000) (K := 64) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x128) hz]
  rw [pay_eq]
  obtain ⟨e0, e1, e2, e3, e4, e5⟩ := idx_facts t
  funext j
  obtain ⟨p, q, rfl⟩ : ∃ (p : Fin 10000) (q : Fin 128), j = ix2 p q := ⟨j 0, j 1, eq_ix2 j⟩
  show matProd (M := 10000) (K := 64) (N := 128) (iblk0 V c 0 t) (iblk0 V c 1 t) (ix2 p q)
    = matProd (M := 100000) (K := 64) (N := 128) (V c main_arg0) (V c main_arg2) (((cfg0.win 2).blk t).view.emb (ix2 p q))
  rw [matProd_apply, matProd_apply]
  refine Finset.sum_congr rfl fun k _ => congrArg₂ (· * ·) ?_ ?_
  · show V c main_arg0 (((cfg0.win 0).blk t).view.emb (ix2 p k))
      = V c main_arg0 (ix2 ((((cfg0.win 2).blk t).view.emb (ix2 p q)) 0) k)
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  · show V c main_arg2 (((cfg0.win 1).blk t).view.emb (ix2 k q))
      = V c main_arg2 (ix2 k ((((cfg0.win 2).blk t).view.emb (ix2 p q)) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row `r` of the result is written by point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show (i 0).val / 10000 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region: the product of the two operand arrays as the region finds them. -/
theorem arr_eq (c : Dev nD) :
    (dat0 V c).arrAt 2 cfg0.N = matProd (M := 100000) (K := 64) (N := 128) (V c main_arg0) (V c main_arg2) :=
  (dat0 V c).arrAt_eq_of_cover 2 _ (fun t _ => flushed_eq V c t) cover

end Cert.KernelIdeal.Region0

end
-- ==== Proof.Region1.lean ====
/-
  The second region: the first layer's bias and rectifier, ten blocks of 10000 rows.  Each grid point loads 10000 rows of
  the aggregated features and the bias row, adds the row to every row, takes the maximum with zero, and writes the rows
  back; the blocks tile the result, so the array the region leaves is that function of the two arrays it found.
-/
import proofs.«127963_j3255585210493_1_alg».proof.Proof.Gen.KernelIdeal.Frame
import proofs.«127963_j3255585210493_1_alg».proof.Proof.Spec

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the row added to the block of rows it loaded, and the maximum with zero. -/
theorem pay_eq (x0 : Vec Ideal S10000x128 .f32) (x1 : Vec Ideal S1x128 .f32) :
    k1_pay1 x0 x1 = biasRelu (M := 10000) (N := 128) x0 x1 := by
  unfold k1_pay1
  exact kernel_biasRelu x0 x1 _ _ _

/-! ## From blocks of rows to the array -/

/-- The index maps over the grid: point `t` takes rows `[10000·t, 10000·t + 10000)` of the operand and of the result, and
    the whole row vector. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the biased, rectified operand array as the region finds it. -/
theorem flushed_eq (c : Dev nD) (t : Fin cfg1.N) :
    (dat1 V c).flushed 2 t = ((cfg1.win 2).blk t).view.read (Elt Ideal)
      (biasRelu (M := 100000) (N := 128) (V c main_v43) (V c main_v44)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  rw [pay_eq]
  obtain ⟨e0, e1, e2, e3, e4, e5⟩ := idx_facts t
  funext j
  obtain ⟨p, q, rfl⟩ : ∃ (p : Fin 10000) (q : Fin 128), j = ix2 p q := ⟨j 0, j 1, eq_ix2 j⟩
  show biasRelu (M := 10000) (N := 128) (iblk1 V c 0 t) (iblk1 V c 1 t) (ix2 p q)
    = biasRelu (M := 100000) (N := 128) (V c main_v43) (V c main_v44) (((cfg1.win 2).blk t).view.emb (ix2 p q))
  rw [biasRelu_apply, biasRelu_apply]
  refine congrArg₂ max (congrArg₂ (· + ·) ?_ ?_) rfl
  · show V c main_v43 (((cfg1.win 0).blk t).view.emb (ix2 p q)) = V c main_v43 (((cfg1.win 2).blk t).view.emb (ix2 p q))
    refine congrArg (V c main_v43) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  · show V c main_v44 (((cfg1.win 1).blk t).view.emb (ix2 (0 : Fin 1) q))
      = V c main_v44 (ix2 (0 : Fin 1) ((((cfg1.win 2).blk t).view.emb (ix2 p q)) 1))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row `r` of the result is written by point `r / 10000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show (i 0).val / 10000 < grid1.N; rw [N_1]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: the operand array with the row added to every row, and the maximum with zero. -/
theorem arr_eq (c : Dev nD) :
    (dat1 V c).arrAt 2 cfg1.N = biasRelu (M := 100000) (N := 128) (V c main_v43) (V c main_v44) :=
  (dat1 V c).arrAt_eq_of_cover 2 _ (fun t _ => flushed_eq V c t) cover

end Cert.KernelIdeal.Region1

end
-- ==== Proof.Region2.lean ====
/-
  The third region: `h1 · W2`, ten blocks of 10000 rows.  Each grid point loads 10000 rows of the first layer's output and
  the whole of `W2`, multiplies them into a zero accumulator, and writes the 10000 rows of the result back; the blocks tile
  the result, so the array the region leaves is the product of the two arrays it found, entry by entry a sum over the 128
  shared coordinates.
-/
import proofs.«127963_j3255585210493_1_alg».proof.Proof.Gen.KernelIdeal.Frame
import proofs.«127963_j3255585210493_1_alg».proof.Proof.Spec

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block's matrix product is rows times columns -/

abbrev D : DotDims S10000x128 S128x64 S10000x64 := dot_S10000x128_S128x64_S10000x64_1_0_0_1_n_n

theorem d_l0 (j : S10000x64.Idx) (q : D.contr.Idx) : (D.lhsIdx j q 0).val = (j 0).val := by
  unfold DotDims.lhsIdx
  rw [dif_neg (show ¬(0 : Fin S10000x128.rank) ∈ D.lhsBatch by decide), dif_pos (show (0 : Fin S10000x128.rank) ∈ D.lhsNonContracting by decide)]
  rfl
theorem d_l1 (j : S10000x64.Idx) (q : D.contr.Idx) : (D.lhsIdx j q 1).val = (q ⟨0, by decide⟩).val :=
  D.lhsIdx_val_of_single rfl j q
theorem d_r0 (j : S10000x64.Idx) (q : D.contr.Idx) : (D.rhsIdx j q 0).val = (q ⟨0, by decide⟩).val :=
  D.rhsIdx_val_of_single rfl j q
theorem d_r1 (j : S10000x64.Idx) (q : D.contr.Idx) : (D.rhsIdx j q 1).val = (j 1).val := by
  unfold DotDims.rhsIdx
  rw [dif_neg (show ¬(1 : Fin S128x64.rank) ∈ D.rhsBatch by decide), dif_pos (show (1 : Fin S128x64.rank) ∈ D.rhsNonContracting by decide)]
  rfl

/-- The body's one stored value: the product of the block of rows it loaded with the whole right operand. -/
theorem pay_eq (x0 : Vec Ideal S10000x128 .f32) (x1 : Vec Ideal S128x64 .f32) :
    k2_pay1 x0 x1 = matProd (M := 10000) (K := 128) (N := 64) x0 x1 := by
  unfold k2_pay1
  simp only [shapeCast_self (s := S10000x128)]
  exact matmul_zero_eq D rfl rfl d_l0 d_l1 d_r0 d_r1 _ _

/-! ## From blocks of rows to the array -/

/-- The index maps over the grid: point `t` takes rows `[10000·t, 10000·t + 10000)` of the left operand and of the
    result, and the whole right operand. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two whole arrays as the region finds them. -/
theorem flushed_eq (c : Dev nD) (t : Fin cfg2.N) :
    (dat2 V c).flushed 2 t = ((cfg2.win 2).blk t).view.read (Elt Ideal)
      (matProd (M := 100000) (K := 128) (N := 64) (V c main_v45) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  rw [pay_eq]
  obtain ⟨e0, e1, e2, e3, e4, e5⟩ := idx_facts t
  funext j
  obtain ⟨p, q, rfl⟩ : ∃ (p : Fin 10000) (q : Fin 64), j = ix2 p q := ⟨j 0, j 1, eq_ix2 j⟩
  show matProd (M := 10000) (K := 128) (N := 64) (iblk2 V c 0 t) (iblk2 V c 1 t) (ix2 p q)
    = matProd (M := 100000) (K := 128) (N := 64) (V c main_v45) (V c main_arg4) (((cfg2.win 2).blk t).view.emb (ix2 p q))
  rw [matProd_apply, matProd_apply]
  refine Finset.sum_congr rfl fun k _ => congrArg₂ (· * ·) ?_ ?_
  · show V c main_v45 (((cfg2.win 0).blk t).view.emb (ix2 p k))
      = V c main_v45 (ix2 ((((cfg2.win 2).blk t).view.emb (ix2 p q)) 0) k)
    refine congrArg (V c main_v45) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · show V c main_arg4 (((cfg2.win 1).blk t).view.emb (ix2 k q))
      = V c main_arg4 (ix2 k ((((cfg2.win 2).blk t).view.emb (ix2 p q)) 1))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row `r` of the result is written by point `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show (i 0).val / 10000 < grid2.N; rw [N_2]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the region: the product of the two operand arrays as the region finds them. -/
theorem arr_eq (c : Dev nD) :
    (dat2 V c).arrAt 2 cfg2.N = matProd (M := 100000) (K := 128) (N := 64) (V c main_v45) (V c main_arg4) :=
  (dat2 V c).arrAt_eq_of_cover 2 _ (fun t _ => flushed_eq V c t) cover

end Cert.KernelIdeal.Region2

end
-- ==== Proof.Region3.lean ====
/-
  The fourth region: the second layer's bias and rectifier, ten blocks of 10000 rows.  Each grid point loads 10000 rows of
  the aggregated features and the bias row, adds the row to every row, takes the maximum with zero, and writes the rows
  back; the blocks tile the result, so the array the region leaves is that function of the two arrays it found.
-/
import proofs.«127963_j3255585210493_1_alg».proof.Proof.Gen.KernelIdeal.Frame
import proofs.«127963_j3255585210493_1_alg».proof.Proof.Spec

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the row added to the block of rows it loaded, and the maximum with zero. -/
theorem pay_eq (x0 : Vec Ideal S10000x64 .f32) (x1 : Vec Ideal S1x64 .f32) :
    k3_pay1 x0 x1 = biasRelu (M := 10000) (N := 64) x0 x1 := by
  unfold k3_pay1
  exact kernel_biasRelu x0 x1 _ _ _

/-! ## From blocks of rows to the array -/

/-- The index maps over the grid: point `t` takes rows `[10000·t, 10000·t + 10000)` of the operand and of the result, and
    the whole row vector. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the biased, rectified operand array as the region finds it. -/
theorem flushed_eq (c : Dev nD) (t : Fin cfg3.N) :
    (dat3 V c).flushed 2 t = ((cfg3.win 2).blk t).view.read (Elt Ideal)
      (biasRelu (M := 100000) (N := 64) (V c main_v85) (V c main_v86)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay_eq]
  obtain ⟨e0, e1, e2, e3, e4, e5⟩ := idx_facts t
  funext j
  obtain ⟨p, q, rfl⟩ : ∃ (p : Fin 10000) (q : Fin 64), j = ix2 p q := ⟨j 0, j 1, eq_ix2 j⟩
  show biasRelu (M := 10000) (N := 64) (iblk3 V c 0 t) (iblk3 V c 1 t) (ix2 p q)
    = biasRelu (M := 100000) (N := 64) (V c main_v85) (V c main_v86) (((cfg3.win 2).blk t).view.emb (ix2 p q))
  rw [biasRelu_apply, biasRelu_apply]
  refine congrArg₂ max (congrArg₂ (· + ·) ?_ ?_) rfl
  · show V c main_v85 (((cfg3.win 0).blk t).view.emb (ix2 p q)) = V c main_v85 (((cfg3.win 2).blk t).view.emb (ix2 p q))
    refine congrArg (V c main_v85) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  · show V c main_v86 (((cfg3.win 1).blk t).view.emb (ix2 (0 : Fin 1) q))
      = V c main_v86 (ix2 (0 : Fin 1) ((((cfg3.win 2).blk t).view.emb (ix2 p q)) 1))
    refine congrArg (V c main_v86) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega

/-- An index of the result array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v87).slice (win3_2.rect t)).set ↔ _
  rw [View.set_slice_whole, Rect.mem_set_unit]
  exact Iff.rfl

/-- Row `r` of the result is written by point `r / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by show (i 0).val / 10000 < grid3.N; rw [N_3]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the region: the operand array with the row added to every row, and the maximum with zero. -/
theorem arr_eq (c : Dev nD) :
    (dat3 V c).arrAt 2 cfg3.N = biasRelu (M := 100000) (N := 64) (V c main_v85) (V c main_v86) :=
  (dat3 V c).arrAt_eq_of_cover 2 _ (fun t _ => flushed_eq V c t) cover

end Cert.KernelIdeal.Region3

end
-- ==== Proof.Region4.lean ====
/-
  The last region: the edge classifier, fifty blocks of 20000 edges.  Each grid point loads 20000 rows of the edge
  embeddings, the weight column and the bias, multiplies the rows by the column into a zero accumulator, adds the bias and
  applies the logistic function, and writes its 20000 results back; the blocks tile the result, so the array the region
  leaves is that function of the three arrays it found.
-/
import proofs.«127963_j3255585210493_1_alg».proof.Proof.Gen.KernelIdeal.Frame
import proofs.«127963_j3255585210493_1_alg».proof.Proof.Spec

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block's product by the weight column -/

abbrev D : DotDims S20000x128 S128x1 S20000x1 := dot_S20000x128_S128x1_S20000x1_1_0_0_1_n_n

theorem d_l0 (j : S20000x1.Idx) (q : D.contr.Idx) : (D.lhsIdx j q 0).val = (j 0).val := by
  unfold DotDims.lhsIdx
  rw [dif_neg (show ¬(0 : Fin S20000x128.rank) ∈ D.lhsBatch by decide), dif_pos (show (0 : Fin S20000x128.rank) ∈ D.lhsNonContracting by decide)]
  rfl
theorem d_l1 (j : S20000x1.Idx) (q : D.contr.Idx) : (D.lhsIdx j q 1).val = (q ⟨0, by decide⟩).val :=
  D.lhsIdx_val_of_single rfl j q
theorem d_r0 (j : S20000x1.Idx) (q : D.contr.Idx) : (D.rhsIdx j q 0).val = (q ⟨0, by decide⟩).val :=
  D.rhsIdx_val_of_single rfl j q
theorem d_r1 (j : S20000x1.Idx) (q : D.contr.Idx) : (D.rhsIdx j q 1).val = (j 1).val := by
  unfold DotDims.rhsIdx
  rw [dif_neg (show ¬(1 : Fin S128x1.rank) ∈ D.rhsBatch by decide), dif_pos (show (1 : Fin S128x1.rank) ∈ D.rhsNonContracting by decide)]
  rfl

/-- The body's one stored value: the logistic function of the rows' products with the column, plus the bias. -/
theorem pay_eq (x0 : Vec Ideal S20000x128 .f32) (x1 : Vec Ideal S128x1 .f32) (x2 : Vec Ideal S1x1 .f32) :
    k4_pay1 x0 x1 x2 = sigm (M := 20000) (K := 128) x0 x1 x2 := by
  unfold k4_pay1
  simp only [shapeCast_self (s := S20000x128)]
  exact kernel_sigm D rfl rfl d_l0 d_l1 d_r0 d_r1 _ _ x2 _ _

/-! ## From blocks of edges to the array -/

/-- The index maps over the grid: point `t` takes rows `[20000·t, 20000·t + 20000)` of the embeddings and of the result,
    and the whole column and bias. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the classifier's value on the three arrays as the region finds them. -/
theorem flushed_eq (c : Dev nD) (t : Fin cfg4.N) :
    (dat4 V c).flushed 3 t = ((cfg4.win 3).blk t).view.read (Elt Ideal)
      (sigm (M := 1000000) (K := 128) (V c main_v102) (V c main_arg6) (V c main_v103)) := by
  show (cfg4.win 3).cut (grid4.coords t) ((dat4 V c).after 3 t) = _
  rw [after4_3]
  unfold out4_3
  rw [View.canon_unit_zero hz]
  simp only [View.ld_unit_zero (S := S20000x128) hz, View.ld_unit_zero (S := S128x1) hz, View.ld_unit_zero (S := S1x1) hz]
  rw [pay_eq]
  obtain ⟨e0, e1, e2, e3, e4, e5, e6, e7⟩ := idx_facts t
  funext j
  obtain ⟨p, q, rfl⟩ : ∃ (p : Fin 20000) (q : Fin 1), j = ix2 p q := ⟨j 0, j 1, eq_ix2 j⟩
  show sigm (M := 20000) (K := 128) (iblk4 V c 0 t) (iblk4 V c 1 t) (iblk4 V c 2 t) (ix2 p q)
    = sigm (M := 1000000) (K := 128) (V c main_v102) (V c main_arg6) (V c main_v103) (((cfg4.win 3).blk t).view.emb (ix2 p q))
  rw [sigm_apply, sigm_apply, matProd_apply, matProd_apply]
  refine congrArg Ideal.logistic (congrArg₂ (· + ·) (Finset.sum_congr rfl fun k _ => congrArg₂ (· * ·) ?_ ?_) ?_)
  · show V c main_v102 (((cfg4.win 0).blk t).view.emb (ix2 p k))
      = V c main_v102 (ix2 ((((cfg4.win 3).blk t).view.emb (ix2 p q)) 0) k)
    refine congrArg (V c main_v102) (funext fun a => Fin.ext ?_)
    match a with
    | ⟨0, _⟩ => show win4_0.index t (0 : Fin 2) * 20000 + 1 * p.val = win4_3.index t (0 : Fin 2) * 20000 + 1 * p.val; omega
    | ⟨1, _⟩ => show win4_0.index t (1 : Fin 2) * 128 + 1 * k.val = k.val; omega
  · show V c main_arg6 (((cfg4.win 1).blk t).view.emb (ix2 k q))
      = V c main_arg6 (ix2 k ((((cfg4.win 3).blk t).view.emb (ix2 p q)) 1))
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 1 + 1 * q.val = win4_3.index t (1 : Fin 2) * 1 + 1 * q.val; omega
  · show V c main_v103 (((cfg4.win 2).blk t).view.emb (ix2 (0 : Fin 1) (0 : Fin 1))) = V c main_v103 (ix2 (0 : Fin 1) (0 : Fin 1))
    refine congrArg (V c main_v103) (funext fun a => Fin.ext ?_)
    match a with
    | ⟨0, _⟩ => show win4_2.index t (0 : Fin 2) * 1 + 1 * 0 = 0; omega
    | ⟨1, _⟩ => show win4_2.index t (1 : Fin 2) * 1 + 1 * 0 = 0; omega

/-- An index of the result array is in point `t`'s block iff each coordinate is in the block's range on its axis. -/
theorem mem_blk (t : Fin cfg4.N) (i : S1000000x1.Idx) :
    i ∈ ((cfg4.win 3).blk t).view.set ↔ ∀ a : Fin 2, win4_3.index t a * S20000x1.size a ≤ (i a).val ∧ (i a).val < win4_3.index t a * S20000x1.size a + S20000x1.size a := by
  show i ∈ ((View.whole main_v104).slice (win4_3.rect t)).set ↔ _
  rw [View.set_slice_whole, Rect.mem_set_unit]
  exact Iff.rfl

/-- Edge `r` of the result is written by point `r / 20000`. -/
theorem cover (i : S1000000x1.Idx) : ∃ t : Fin cfg4.N, (cfg4.win 3).flush t = true ∧ i ∈ ((cfg4.win 3).blk t).view.set := by
  have hi0 : (i 0).val < 1000000 := (i 0).isLt
  have hi1 : (i 1).val < 1 := (i 1).isLt
  obtain ⟨t, ht⟩ : ∃ t : Fin cfg4.N, t.val = (i 0).val / 20000 :=
    ⟨⟨(i 0).val / 20000, by show (i 0).val / 20000 < grid4.N; rw [N_4]; omega⟩, rfl⟩
  obtain ⟨e0, e1, e2, e3, e4, e5, e6, e7⟩ := idx_facts t
  refine ⟨t, flush4_3 t, ?_⟩
  rw [mem_blk]
  intro a
  match a with
  | ⟨0, _⟩ => show win4_3.index t (0 : Fin 2) * 20000 ≤ (i 0).val ∧ (i 0).val < win4_3.index t (0 : Fin 2) * 20000 + 20000; omega
  | ⟨1, _⟩ => show win4_3.index t (1 : Fin 2) * 1 ≤ (i 1).val ∧ (i 1).val < win4_3.index t (1 : Fin 2) * 1 + 1; omega

/-- The result array after the region: the classifier's value on the three arrays as the region finds them. -/
theorem arr_eq (c : Dev nD) :
    (dat4 V c).arrAt 3 cfg4.N = sigm (M := 1000000) (K := 128) (V c main_v102) (V c main_arg6) (V c main_v103) :=
  (dat4 V c).arrAt_eq_of_cover 3 _ (fun t _ => flushed_eq V c t) cover

end Cert.KernelIdeal.Region4

end
-- ==== Proof.Chain.lean ====
/-
  What the kernel's buffers hold at each segment boundary, read against the reference's stages.

  The two programs apply the same host operations around different spellings of three dense steps, so the fold of the
  kernel's buffer contents through its thirteen segments meets the reference's stages one boundary at a time:
    after region 0   the first product            = the reference's first `dot_general`,
    before region 1  the first aggregation        = the reference's first scatter-add (the same operations of equal operands),
    after region 1   bias and rectifier           = the reference's add and maximum,
    after region 2   the second product           = the reference's second `dot_general`,
    before region 3  the second aggregation       = the reference's second scatter-add,
    after region 3   bias and rectifier           = the reference's add and maximum,
    before region 4  the gathered, joined rows    = the reference's concatenate,
    after region 4   the classifier               = the reference's quotient `1 / (1 + e^(-x))`.
  A host stretch is opened by evaluating its operations at the buffers it reads; a buffer no later segment writes (the two
  rows of the edge list, the later arguments) is walked back to where it was written.  The shared host chains (degrees,
  normalisation, gathers, scatter-adds) are never opened: both sides are the same term of equal operands.
-/
import proofs.«127963_j3255585210493_1_alg».proof.Proof.Gen.KernelIdeal.Frame
import proofs.«127963_j3255585210493_1_alg».proof.Proof.RefRead
import proofs.«127963_j3255585210493_1_alg».proof.Proof.Spec
import proofs.«127963_j3255585210493_1_alg».proof.Proof.Region0
import proofs.«127963_j3255585210493_1_alg».proof.Proof.Region1
import proofs.«127963_j3255585210493_1_alg».proof.Proof.Region2
import proofs.«127963_j3255585210493_1_alg».proof.Proof.Region3
import proofs.«127963_j3255585210493_1_alg».proof.Proof.Region4

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen Cert.Gcn Cert.ReferenceIdeal.ReadP

variable (m : (ℓ : Loc nD τ sig) → Buf (Elt Ideal) ℓ) (ρ : Dev nD → PrngReg) (c : Dev nD)

/-- Evaluate what is left of a stretch of host operations at a buffer: an operation's result at its own buffer is its
    function's value, at any other buffer what was there before. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The aggregation's host stretches, one at a time

  Each aggregation is three stretches of host operations: the self loops joined to the edge rows, the degrees and their
  comparison with zero and inverse square roots; the choice between the inverse square root and zero; and the gathers,
  the normalising products and the scatter-add.  Each stretch is read over ANY buffer contents `Wp` that hold the
  reference's stages at the buffers it reads: it then leaves the reference's stages at the buffers it writes, being the
  same operations. -/

section Stretches

variable (Wp : Valuation τ sig (Elt Ideal))
  (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal))

/-! ### The first aggregation -/

theorem l1_v6 (h1 : Wp (Proc.devRef .tc main_v1) = val_main_v1 (F := Ideal) x1) :
    after hostOps1 Wp (Proc.devRef .tc main_v6) = val_main_v6 (F := Ideal) x1 := by
  dsimp only [hostOps1]
  after_results_simp
  results_rw
  all_goals (first | (rw [h1]; rfl) | rfl)

theorem l1_v7 (h3 : Wp (Proc.devRef .tc main_v3) = val_main_v3 (F := Ideal) x1) :
    after hostOps1 Wp (Proc.devRef .tc main_v7) = val_main_v7 (F := Ideal) x1 := by
  dsimp only [hostOps1]
  after_results_simp
  results_rw
  all_goals (first | (rw [h3]; rfl) | rfl)

theorem l1_v13 (h3 : Wp (Proc.devRef .tc main_v3) = val_main_v3 (F := Ideal) x1) :
    after hostOps1 Wp (Proc.devRef .tc main_v13) = val_main_v13 (F := Ideal) x1 := by
  dsimp only [hostOps1]
  after_results_simp
  results_rw
  all_goals (first | (rw [h3]; rfl) | rfl)

theorem l1_v14 (h3 : Wp (Proc.devRef .tc main_v3) = val_main_v3 (F := Ideal) x1) :
    after hostOps1 Wp (Proc.devRef .tc main_v14) = val_main_v14 (F := Ideal) x1 := by
  dsimp only [hostOps1]
  after_results_simp
  results_rw
  all_goals (first | (rw [h3]; rfl) | rfl)

theorem l1_cst2  :
    after hostOps1 Wp (Proc.devRef .tc main_cst_2) = val_main_cst_2 (F := Ideal) := by
  dsimp only [hostOps1]
  after_results_simp
  results_rw
  all_goals rfl

theorem l2_v15 (h13 : Wp (Proc.devRef .tc main_v13) = val_main_v13 (F := Ideal) x1) (h14 : Wp (Proc.devRef .tc main_v14) = val_main_v14 (F := Ideal) x1) (hc : Wp (Proc.devRef .tc main_cst_2) = val_main_cst_2 (F := Ideal)) :
    after hostOps1_1 Wp (Proc.devRef .tc main_v15) = val_main_v15 (F := Ideal) x1 := by
  dsimp only [hostOps1_1]
  after_results_simp
  results_rw
  rw [h13, h14, hc]
  unfold val_main_v15 val_main_call0_v1 val_main_call0_v0
  rw [show (TRef.of (sig := sig) (T := ⟨S100000, .i1⟩) main_v13).ofBuf (val_main_v13 (F := Ideal) x1) = val_main_v13 (F := Ideal) x1 from rfl,
    show (TRef.of (sig := sig) (T := ⟨S100000, .f32⟩) main_v14).ofBuf (val_main_v14 (F := Ideal) x1) = val_main_v14 (F := Ideal) x1 from rfl,
    show (TRef.of (sig := sig) (T := ⟨S_, .f32⟩) main_cst_2).ofBuf (val_main_cst_2 (F := Ideal)) = val_main_cst_2 (F := Ideal) from rfl,
    show (TRef.of (sig := sig) (T := ⟨S_, .f32⟩) main_call0_v0).ofBuf ((TRef.of (sig := sig) (T := ⟨S_, .f32⟩) main_call0_v0).toBuf (id (val_main_cst_2 (F := Ideal)))) = id (val_main_cst_2 (F := Ideal)) from rfl,
    show (TRef.of (sig := sig) (T := ⟨S100000, .f32⟩) main_call0_v1).ofBuf ((TRef.of (sig := sig) (T := ⟨S100000, .f32⟩) main_call0_v1).toBuf
        (broadcastInDim S100000 ![] bcast_S_S100000 (id (val_main_cst_2 (F := Ideal))))) = broadcastInDim S100000 ![] bcast_S_S100000 (id (val_main_cst_2 (F := Ideal))) from rfl]
  refine Eq.trans (b := select (val_main_v13 (F := Ideal) x1) (val_main_v14 (F := Ideal) x1) (broadcastInDim S100000 ![] bcast_S_S100000 (id (val_main_cst_2 (F := Ideal))))) rfl ?_
  rfl

theorem l3_v43 (h4 : Wp (Proc.devRef .tc main_v4) = val_main_v4 (F := Ideal) x0 x2) (h6 : Wp (Proc.devRef .tc main_v6) = val_main_v6 (F := Ideal) x1) (h7 : Wp (Proc.devRef .tc main_v7) = val_main_v7 (F := Ideal) x1) (h15 : Wp (Proc.devRef .tc main_v15) = val_main_v15 (F := Ideal) x1) :
    after hostOps1_2 Wp (Proc.devRef .tc main_v43) = val_main_v43 (F := Ideal) x0 x1 x2 := by
  dsimp only [hostOps1_2]
  after_results_simp
  results_rw
  rw [h4, h6, h7, h15]
  unfold val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_c val_main_c_3 val_main_c_4 val_main_c_5 val_main_c_6 val_main_c_7 val_main_cst_8
  rfl

/-! ### The second aggregation -/

theorem m1_v48 (h1 : Wp (Proc.devRef .tc main_v1) = val_main_v1 (F := Ideal) x1) :
    after hostOps3 Wp (Proc.devRef .tc main_v48) = val_main_v50 (F := Ideal) x1 := by
  dsimp only [hostOps3]
  after_results_simp
  results_rw
  all_goals (first | (rw [h1]; rfl) | rfl)

theorem m1_v49 (h3 : Wp (Proc.devRef .tc main_v3) = val_main_v3 (F := Ideal) x1) :
    after hostOps3 Wp (Proc.devRef .tc main_v49) = val_main_v51 (F := Ideal) x1 := by
  dsimp only [hostOps3]
  after_results_simp
  results_rw
  all_goals (first | (rw [h3]; rfl) | rfl)

theorem m1_v55 (h3 : Wp (Proc.devRef .tc main_v3) = val_main_v3 (F := Ideal) x1) :
    after hostOps3 Wp (Proc.devRef .tc main_v55) = val_main_v57 (F := Ideal) x1 := by
  dsimp only [hostOps3]
  after_results_simp
  results_rw
  all_goals (first | (rw [h3]; rfl) | rfl)

theorem m1_v56 (h3 : Wp (Proc.devRef .tc main_v3) = val_main_v3 (F := Ideal) x1) :
    after hostOps3 Wp (Proc.devRef .tc main_v56) = val_main_v58 (F := Ideal) x1 := by
  dsimp only [hostOps3]
  after_results_simp
  results_rw
  all_goals (first | (rw [h3]; rfl) | rfl)

theorem m1_cst12  :
    after hostOps3 Wp (Proc.devRef .tc main_cst_12) = val_main_cst_12 (F := Ideal) := by
  dsimp only [hostOps3]
  after_results_simp
  results_rw
  all_goals rfl

theorem m2_v57 (h55 : Wp (Proc.devRef .tc main_v55) = val_main_v57 (F := Ideal) x1) (h56 : Wp (Proc.devRef .tc main_v56) = val_main_v58 (F := Ideal) x1) (hc : Wp (Proc.devRef .tc main_cst_12) = val_main_cst_12 (F := Ideal)) :
    after hostOps3_1 Wp (Proc.devRef .tc main_v57) = val_main_v59 (F := Ideal) x1 := by
  dsimp only [hostOps3_1]
  after_results_simp
  results_rw
  rw [h55, h56, hc]
  unfold val_main_v59 val_main_call2_v1 val_main_call2_v0
  rw [show (TRef.of (sig := sig) (T := ⟨S100000, .i1⟩) main_v55).ofBuf (val_main_v57 (F := Ideal) x1) = val_main_v57 (F := Ideal) x1 from rfl,
    show (TRef.of (sig := sig) (T := ⟨S100000, .f32⟩) main_v56).ofBuf (val_main_v58 (F := Ideal) x1) = val_main_v58 (F := Ideal) x1 from rfl,
    show (TRef.of (sig := sig) (T := ⟨S_, .f32⟩) main_cst_12).ofBuf (val_main_cst_12 (F := Ideal)) = val_main_cst_12 (F := Ideal) from rfl,
    show (TRef.of (sig := sig) (T := ⟨S_, .f32⟩) main_call1_v0).ofBuf ((TRef.of (sig := sig) (T := ⟨S_, .f32⟩) main_call1_v0).toBuf (id (val_main_cst_12 (F := Ideal)))) = id (val_main_cst_12 (F := Ideal)) from rfl,
    show (TRef.of (sig := sig) (T := ⟨S100000, .f32⟩) main_call1_v1).ofBuf ((TRef.of (sig := sig) (T := ⟨S100000, .f32⟩) main_call1_v1).toBuf
        (broadcastInDim S100000 ![] bcast_S_S100000 (id (val_main_cst_12 (F := Ideal))))) = broadcastInDim S100000 ![] bcast_S_S100000 (id (val_main_cst_12 (F := Ideal))) from rfl]
  refine Eq.trans (b := select (val_main_v57 (F := Ideal) x1) (val_main_v58 (F := Ideal) x1) (broadcastInDim S100000 ![] bcast_S_S100000 (id (val_main_cst_12 (F := Ideal))))) rfl ?_
  rfl

theorem m3_v85 (h46 : Wp (Proc.devRef .tc main_v46) = val_main_v48 (F := Ideal) x0 x1 x2 x3 x4) (h48 : Wp (Proc.devRef .tc main_v48) = val_main_v50 (F := Ideal) x1) (h49 : Wp (Proc.devRef .tc main_v49) = val_main_v51 (F := Ideal) x1) (h57 : Wp (Proc.devRef .tc main_v57) = val_main_v59 (F := Ideal) x1) :
    after hostOps3_2 Wp (Proc.devRef .tc main_v85) = val_main_v87 (F := Ideal) x0 x1 x2 x3 x4 := by
  dsimp only [hostOps3_2]
  after_results_simp
  results_rw
  rw [h46, h48, h49, h57]
  unfold val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_c_13 val_main_c_14 val_main_c_15 val_main_c_16 val_main_c_17 val_main_c_18 val_main_cst_19
  rfl

end Stretches

/-! ## Before region 0: the two rows of the edge list, and the arguments -/

theorem w1_v1 : W1 m ρ c (Proc.devRef .tc main_v1) = val_main_v1 (F := Ideal) (m ((c : Thread nD τ).loc main_arg1)) := by
  dsimp only [W1, hostOps0]
  after_results
  rfl

theorem w1_v3 : W1 m ρ c (Proc.devRef .tc main_v3) = val_main_v3 (F := Ideal) (m ((c : Thread nD τ).loc main_arg1)) := by
  dsimp only [W1, hostOps0]
  after_results
  rfl

theorem w1_a0 : W1 m ρ c (Proc.devRef .tc main_arg0) = (m ((c : Thread nD τ).loc main_arg0)) := by
  dsimp only [W1, hostOps0]
  after_results

theorem w1_a2 : W1 m ρ c (Proc.devRef .tc main_arg2) = (m ((c : Thread nD τ).loc main_arg2)) := by
  dsimp only [W1, hostOps0]
  after_results

theorem w1_a3 : W1 m ρ c (Proc.devRef .tc main_arg3) = (m ((c : Thread nD τ).loc main_arg3)) := by
  dsimp only [W1, hostOps0]
  after_results

theorem w1_a4 : W1 m ρ c (Proc.devRef .tc main_arg4) = (m ((c : Thread nD τ).loc main_arg4)) := by
  dsimp only [W1, hostOps0]
  after_results

theorem w1_a5 : W1 m ρ c (Proc.devRef .tc main_arg5) = (m ((c : Thread nD τ).loc main_arg5)) := by
  dsimp only [W1, hostOps0]
  after_results

theorem w1_a6 : W1 m ρ c (Proc.devRef .tc main_arg6) = (m ((c : Thread nD τ).loc main_arg6)) := by
  dsimp only [W1, hostOps0]
  after_results

theorem w1_a7 : W1 m ρ c (Proc.devRef .tc main_arg7) = (m ((c : Thread nD τ).loc main_arg7)) := by
  dsimp only [W1, hostOps0]
  after_results

/-! ## Region 0: the first product -/

theorem w2_v4 : W2 m ρ c (Proc.devRef .tc main_v4) = val_main_v4 (F := Ideal) (m ((c : Thread nD τ).loc main_arg0)) (m ((c : Thread nD τ).loc main_arg2)) := by
  refine (W2_arr m ρ c 2).trans ?_
  rw [Region0.arr_eq (V1 m ρ) c]
  rw [show V1 m ρ c main_arg0 = (m ((c : Thread nD τ).loc main_arg0)) from w1_a0 m ρ c, show V1 m ρ c main_arg2 = (m ((c : Thread nD τ).loc main_arg2)) from w1_a2 m ρ c]
  exact (dotGeneral_eq Cert.ReferenceIdeal.dot_S100000x64_S64x128_S100000x128_1_0_0_1_n_n rfl rfl lhs_main_v4_0 lhs_main_v4_1 rhs_main_v4_0 rhs_main_v4_1 _ _).symm

theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_a3 : W2 m ρ c (Proc.devRef .tc main_arg3) = (m ((c : Thread nD τ).loc main_arg3)) :=
  (W2_of_ne m ρ c main_arg3 (by decide)).trans (w1_a3 m ρ c)
theorem w2_a4 : W2 m ρ c (Proc.devRef .tc main_arg4) = (m ((c : Thread nD τ).loc main_arg4)) :=
  (W2_of_ne m ρ c main_arg4 (by decide)).trans (w1_a4 m ρ c)
theorem w2_a5 : W2 m ρ c (Proc.devRef .tc main_arg5) = (m ((c : Thread nD τ).loc main_arg5)) :=
  (W2_of_ne m ρ c main_arg5 (by decide)).trans (w1_a5 m ρ c)
theorem w2_a6 : W2 m ρ c (Proc.devRef .tc main_arg6) = (m ((c : Thread nD τ).loc main_arg6)) :=
  (W2_of_ne m ρ c main_arg6 (by decide)).trans (w1_a6 m ρ c)
theorem w2_a7 : W2 m ρ c (Proc.devRef .tc main_arg7) = (m ((c : Thread nD τ).loc main_arg7)) :=
  (W2_of_ne m ρ c main_arg7 (by decide)).trans (w1_a7 m ρ c)

/-! ## Before region 1: the first aggregation, and the bias as a row -/

theorem w3_v4 : W3 m ρ c (Proc.devRef .tc main_v4) = W2 m ρ c (Proc.devRef .tc main_v4) := by
  dsimp only [W3, hostOps1]
  simp only [after_cons, after_nil]
  results_rw
theorem w4_v4 : W4 m ρ c (Proc.devRef .tc main_v4) = W3 m ρ c (Proc.devRef .tc main_v4) := by
  dsimp only [W4, hostOps1_1]
  simp only [after_cons, after_nil]
  results_rw
theorem w4_v6 : W4 m ρ c (Proc.devRef .tc main_v6) = W3 m ρ c (Proc.devRef .tc main_v6) := by
  dsimp only [W4, hostOps1_1]
  simp only [after_cons, after_nil]
  results_rw
theorem w4_v7 : W4 m ρ c (Proc.devRef .tc main_v7) = W3 m ρ c (Proc.devRef .tc main_v7) := by
  dsimp only [W4, hostOps1_1]
  simp only [after_cons, after_nil]
  results_rw

theorem w5_v43 : W5 m ρ c (Proc.devRef .tc main_v43) = val_main_v43 (F := Ideal) (m ((c : Thread nD τ).loc main_arg0)) (m ((c : Thread nD τ).loc main_arg1)) (m ((c : Thread nD τ).loc main_arg2)) :=
  l3_v43 (W4 m ρ c) _ _ _
    ((w4_v4 m ρ c).trans ((w3_v4 m ρ c).trans (w2_v4 m ρ c)))
    ((w4_v6 m ρ c).trans (l1_v6 (W2 m ρ c) _ (w2_v1 m ρ c)))
    ((w4_v7 m ρ c).trans (l1_v7 (W2 m ρ c) _ (w2_v3 m ρ c)))
    (l2_v15 (W3 m ρ c) _ (l1_v13 (W2 m ρ c) _ (w2_v3 m ρ c)) (l1_v14 (W2 m ρ c) _ (w2_v3 m ρ c)) (l1_cst2 (W2 m ρ c)))

theorem w5_v44 : W5 m ρ c (Proc.devRef .tc main_v44) = shapeCast S1x128 (m ((c : Thread nD τ).loc main_arg3)) shapeCasts_S128_S1x128 := by
  dsimp only [W5, W4, W3, hostOps1_2, hostOps1_1, hostOps1]
  after_results_simp
  results_rw
  all_goals (first | (rw [w2_a3 m ρ c]; rfl) | rfl)

theorem w5_v1 : W5 m ρ c (Proc.devRef .tc main_v1) = val_main_v1 (F := Ideal) (m ((c : Thread nD τ).loc main_arg1)) := by
  dsimp only [W5, W4, W3, hostOps1_2, hostOps1_1, hostOps1]
  after_results_simp
  results_rw
  exact w2_v1 m ρ c
theorem w5_v3 : W5 m ρ c (Proc.devRef .tc main_v3) = val_main_v3 (F := Ideal) (m ((c : Thread nD τ).loc main_arg1)) := by
  dsimp only [W5, W4, W3, hostOps1_2, hostOps1_1, hostOps1]
  after_results_simp
  results_rw
  exact w2_v3 m ρ c
theorem w5_a4 : W5 m ρ c (Proc.devRef .tc main_arg4) = (m ((c : Thread nD τ).loc main_arg4)) := by
  dsimp only [W5, W4, W3, hostOps1_2, hostOps1_1, hostOps1]
  after_results_simp
  results_rw
  exact w2_a4 m ρ c
theorem w5_a5 : W5 m ρ c (Proc.devRef .tc main_arg5) = (m ((c : Thread nD τ).loc main_arg5)) := by
  dsimp only [W5, W4, W3, hostOps1_2, hostOps1_1, hostOps1]
  after_results_simp
  results_rw
  exact w2_a5 m ρ c
theorem w5_a6 : W5 m ρ c (Proc.devRef .tc main_arg6) = (m ((c : Thread nD τ).loc main_arg6)) := by
  dsimp only [W5, W4, W3, hostOps1_2, hostOps1_1, hostOps1]
  after_results_simp
  results_rw
  exact w2_a6 m ρ c
theorem w5_a7 : W5 m ρ c (Proc.devRef .tc main_arg7) = (m ((c : Thread nD τ).loc main_arg7)) := by
  dsimp only [W5, W4, W3, hostOps1_2, hostOps1_1, hostOps1]
  after_results_simp
  results_rw
  exact w2_a7 m ρ c

/-! ## Region 1: bias and rectifier -/

theorem w6_v45 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Region1.arr_eq (V5 m ρ) c]
  rw [show V5 m ρ c main_v43 = _ from w5_v43 m ρ c, show V5 m ρ c main_v44 = _ from w5_v44 m ρ c]
  unfold val_main_v47 val_main_v46 val_main_v45 val_main_v44 val_main_call1_v0 val_main_call1_cst
  exact (host_biasRelu _ _ _ _ _ _).symm

theorem w6_v1 : W6 m ρ c (Proc.devRef .tc main_v1) = val_main_v1 (F := Ideal) (m ((c : Thread nD τ).loc main_arg1)) :=
  (W6_of_ne m ρ c main_v1 (by decide)).trans (w5_v1 m ρ c)
theorem w6_v3 : W6 m ρ c (Proc.devRef .tc main_v3) = val_main_v3 (F := Ideal) (m ((c : Thread nD τ).loc main_arg1)) :=
  (W6_of_ne m ρ c main_v3 (by decide)).trans (w5_v3 m ρ c)
theorem w6_a4 : W6 m ρ c (Proc.devRef .tc main_arg4) = (m ((c : Thread nD τ).loc main_arg4)) :=
  (W6_of_ne m ρ c main_arg4 (by decide)).trans (w5_a4 m ρ c)
theorem w6_a5 : W6 m ρ c (Proc.devRef .tc main_arg5) = (m ((c : Thread nD τ).loc main_arg5)) :=
  (W6_of_ne m ρ c main_arg5 (by decide)).trans (w5_a5 m ρ c)
theorem w6_a6 : W6 m ρ c (Proc.devRef .tc main_arg6) = (m ((c : Thread nD τ).loc main_arg6)) :=
  (W6_of_ne m ρ c main_arg6 (by decide)).trans (w5_a6 m ρ c)
theorem w6_a7 : W6 m ρ c (Proc.devRef .tc main_arg7) = (m ((c : Thread nD τ).loc main_arg7)) :=
  (W6_of_ne m ρ c main_arg7 (by decide)).trans (w5_a7 m ρ c)

/-! ## Region 2: the second product -/

theorem w7_v46 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Region2.arr_eq (V6 m ρ) c]
  rw [show V6 m ρ c main_v45 = _ from w6_v45 m ρ c, show V6 m ρ c main_arg4 = _ from w6_a4 m ρ c]
  unfold val_main_v48
  exact (dotGeneral_eq Cert.ReferenceIdeal.dot_S100000x128_S128x64_S100000x64_1_0_0_1_n_n rfl rfl lhs_main_v48_0 lhs_main_v48_1 rhs_main_v48_0 rhs_main_v48_1 _ _).symm

theorem w7_v1 : W7 m ρ c (Proc.devRef .tc main_v1) = val_main_v1 (F := Ideal) (m ((c : Thread nD τ).loc main_arg1)) :=
  (W7_of_ne m ρ c main_v1 (by decide)).trans (w6_v1 m ρ c)
theorem w7_v3 : W7 m ρ c (Proc.devRef .tc main_v3) = val_main_v3 (F := Ideal) (m ((c : Thread nD τ).loc main_arg1)) :=
  (W7_of_ne m ρ c main_v3 (by decide)).trans (w6_v3 m ρ c)
theorem w7_a5 : W7 m ρ c (Proc.devRef .tc main_arg5) = (m ((c : Thread nD τ).loc main_arg5)) :=
  (W7_of_ne m ρ c main_arg5 (by decide)).trans (w6_a5 m ρ c)
theorem w7_a6 : W7 m ρ c (Proc.devRef .tc main_arg6) = (m ((c : Thread nD τ).loc main_arg6)) :=
  (W7_of_ne m ρ c main_arg6 (by decide)).trans (w6_a6 m ρ c)
theorem w7_a7 : W7 m ρ c (Proc.devRef .tc main_arg7) = (m ((c : Thread nD τ).loc main_arg7)) :=
  (W7_of_ne m ρ c main_arg7 (by decide)).trans (w6_a7 m ρ c)

/-! ## Before region 3: the second aggregation, and the bias as a row -/

theorem w8_v46 : W8 m ρ c (Proc.devRef .tc main_v46) = W7 m ρ c (Proc.devRef .tc main_v46) := by
  dsimp only [W8, hostOps3]
  simp only [after_cons, after_nil]
  results_rw
theorem w9_v46 : W9 m ρ c (Proc.devRef .tc main_v46) = W8 m ρ c (Proc.devRef .tc main_v46) := by
  dsimp only [W9, hostOps3_1]
  simp only [after_cons, after_nil]
  results_rw
theorem w9_v48 : W9 m ρ c (Proc.devRef .tc main_v48) = W8 m ρ c (Proc.devRef .tc main_v48) := by
  dsimp only [W9, hostOps3_1]
  simp only [after_cons, after_nil]
  results_rw
theorem w9_v49 : W9 m ρ c (Proc.devRef .tc main_v49) = W8 m ρ c (Proc.devRef .tc main_v49) := by
  dsimp only [W9, hostOps3_1]
  simp only [after_cons, after_nil]
  results_rw

theorem w10_v85 : W10 m ρ c (Proc.devRef .tc main_v85) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  m3_v85 (W9 m ρ c) _ _ _ _ _
    ((w9_v46 m ρ c).trans ((w8_v46 m ρ c).trans (w7_v46 m ρ c)))
    ((w9_v48 m ρ c).trans (m1_v48 (W7 m ρ c) _ (w7_v1 m ρ c)))
    ((w9_v49 m ρ c).trans (m1_v49 (W7 m ρ c) _ (w7_v3 m ρ c)))
    (m2_v57 (W8 m ρ c) _ (m1_v55 (W7 m ρ c) _ (w7_v3 m ρ c)) (m1_v56 (W7 m ρ c) _ (w7_v3 m ρ c)) (m1_cst12 (W7 m ρ c)))

theorem w10_v86 : W10 m ρ c (Proc.devRef .tc main_v86) = shapeCast S1x64 (m ((c : Thread nD τ).loc main_arg5)) shapeCasts_S64_S1x64 := by
  dsimp only [W10, W9, W8, hostOps3_2, hostOps3_1, hostOps3]
  after_results_simp
  results_rw
  all_goals (first | (rw [w7_a5 m ρ c]; rfl) | rfl)

theorem w10_v1 : W10 m ρ c (Proc.devRef .tc main_v1) = val_main_v1 (F := Ideal) (m ((c : Thread nD τ).loc main_arg1)) := by
  dsimp only [W10, W9, W8, hostOps3_2, hostOps3_1, hostOps3]
  after_results_simp
  results_rw
  exact w7_v1 m ρ c
theorem w10_v3 : W10 m ρ c (Proc.devRef .tc main_v3) = val_main_v3 (F := Ideal) (m ((c : Thread nD τ).loc main_arg1)) := by
  dsimp only [W10, W9, W8, hostOps3_2, hostOps3_1, hostOps3]
  after_results_simp
  results_rw
  exact w7_v3 m ρ c
theorem w10_a6 : W10 m ρ c (Proc.devRef .tc main_arg6) = (m ((c : Thread nD τ).loc main_arg6)) := by
  dsimp only [W10, W9, W8, hostOps3_2, hostOps3_1, hostOps3]
  after_results_simp
  results_rw
  exact w7_a6 m ρ c
theorem w10_a7 : W10 m ρ c (Proc.devRef .tc main_arg7) = (m ((c : Thread nD τ).loc main_arg7)) := by
  dsimp only [W10, W9, W8, hostOps3_2, hostOps3_1, hostOps3]
  after_results_simp
  results_rw
  exact w7_a7 m ρ c

/-! ## Region 3: bias and rectifier -/

theorem w11_v87 : W11 m ρ c (Proc.devRef .tc main_v87) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 2).trans ?_
  rw [Region3.arr_eq (V10 m ρ) c]
  rw [show V10 m ρ c main_v85 = _ from w10_v85 m ρ c, show V10 m ρ c main_v86 = _ from w10_v86 m ρ c]
  unfold val_main_v91 val_main_v90 val_main_v89 val_main_v88 val_main_call3_v0 val_main_call3_cst
  exact (host_biasRelu _ _ _ _ _ _).symm

theorem w11_v1 : W11 m ρ c (Proc.devRef .tc main_v1) = val_main_v1 (F := Ideal) (m ((c : Thread nD τ).loc main_arg1)) :=
  (W11_of_ne m ρ c main_v1 (by decide)).trans (w10_v1 m ρ c)
theorem w11_v3 : W11 m ρ c (Proc.devRef .tc main_v3) = val_main_v3 (F := Ideal) (m ((c : Thread nD τ).loc main_arg1)) :=
  (W11_of_ne m ρ c main_v3 (by decide)).trans (w10_v3 m ρ c)
theorem w11_a6 : W11 m ρ c (Proc.devRef .tc main_arg6) = (m ((c : Thread nD τ).loc main_arg6)) :=
  (W11_of_ne m ρ c main_arg6 (by decide)).trans (w10_a6 m ρ c)
theorem w11_a7 : W11 m ρ c (Proc.devRef .tc main_arg7) = (m ((c : Thread nD τ).loc main_arg7)) :=
  (W11_of_ne m ρ c main_arg7 (by decide)).trans (w10_a7 m ρ c)

/-! ## Before region 4: the gathered rows joined, and the bias as a `[1, 1]` array -/

set_option maxRecDepth 200000 in
set_option maxHeartbeats 8000000 in
theorem w12_v102 : W12 m ρ c (Proc.devRef .tc main_v102) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W12, hostOps4]
  after_results_simp
  results_rw
  all_goals (first | (rw [w11_v87 m ρ c, w11_v1 m ρ c, w11_v3 m ρ c]; rfl) | rfl)

theorem w12_v103 : W12 m ρ c (Proc.devRef .tc main_v103) = shapeCast S1x1 (m ((c : Thread nD τ).loc main_arg7)) shapeCasts_S1_S1x1 := by
  dsimp only [W12, hostOps4]
  after_results_simp
  results_rw
  all_goals (first | (rw [w11_a7 m ρ c]; rfl) | rfl)

theorem w12_a6 : W12 m ρ c (Proc.devRef .tc main_arg6) = (m ((c : Thread nD τ).loc main_arg6)) := by
  dsimp only [W12, hostOps4]
  after_results_simp
  results_rw
  exact w11_a6 m ρ c

/-! ## Region 4: the classifier — the kernel's result is the reference's last stage -/

theorem w13_v104 : W13 m ρ c (Proc.devRef .tc main_v104) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W13_arr m ρ c 3).trans ?_
  rw [Region4.arr_eq (V12 m ρ) c]
  rw [show V12 m ρ c main_v102 = _ from w12_v102 m ρ c, show V12 m ρ c main_arg6 = _ from w12_a6 m ρ c,
    show V12 m ρ c main_v103 = _ from w12_v103 m ρ c]
  unfold val_main_v116 val_main_v115 val_main_v114 val_main_v113 val_main_v112 val_main_v111 val_main_v110 val_main_v109 val_main_v108
    val_main_v107 val_main_cst_25 val_main_cst_24
  exact (host_sigm Cert.ReferenceIdeal.dot_S1000000x128_S128x1_S1000000x1_1_0_0_1_n_n rfl rfl lhs_main_v107_0 lhs_main_v107_1 rhs_main_v107_0 rhs_main_v107_1 _ _ _ _ _ _ _).symm

end Cert.KernelIdeal.Chain

end
-- ==== Proof.lean ====
/-
  A two-layer graph convolution followed by an edge classifier, as a kernel program of five pipelined regions among host
  operations, against its plain reference, on the extended reals.

  Both programs compute, from node features `x`, an edge list, and the weights,
      h1  = relu( A · (x · W1) + b1 ),   h2 = relu( A · (h1 · W2) + b2 ),   out[e] = logistic( [h2[src e], h2[dst e]] · Wc + bc ),
  where `A ·` is the degree-normalised gather / scale / scatter-add over the edges and the self loops.  The aggregation and
  the gathers are host operations in BOTH programs, printed alike, so they are carried as the same function of equal
  operands and never opened.  What differs is the spelling of the dense steps: the kernel computes each product block of
  rows by block of rows into a zero accumulator (the reference: one `dot_general`), adds the bias as a row broadcast inside
  a block (the reference: two broadcasts of the vector), and applies the logistic function (the reference: the quotient
  `1 / (1 + e^(-x))`).  On the extended reals each pair is one function: a matrix product is the plain sum over the shared
  coordinate whatever the tiling, the blocks of rows tile each array, and the logistic function is that quotient by
  definition.  No law used needs finiteness (only the sums' re-indexing), so the precondition is never opened.

  The claims: the two kernel frames are the generated ones; the reference's frame is its run with the result dropped;
  the idealization rewrote nothing; and the two results are equal, the reference's last stage of the arguments.
-/
import proofs.«127963_j3255585210493_1_alg».proof.Defs
import proofs.«127963_j3255585210493_1_alg».proof.Proof.Gen.Kernel
import proofs.«127963_j3255585210493_1_alg».proof.Proof.Gen.Kernel.Skeleton
import proofs.«127963_j3255585210493_1_alg».proof.Proof.Gen.Kernel.Launch
import proofs.«127963_j3255585210493_1_alg».proof.Proof.Gen.Kernel.Points
import proofs.«127963_j3255585210493_1_alg».proof.Proof.Gen.Kernel.Frame
import proofs.«127963_j3255585210493_1_alg».proof.Proof.Gen.KernelIdeal
import proofs.«127963_j3255585210493_1_alg».proof.Proof.Gen.KernelIdeal.Skeleton
import proofs.«127963_j3255585210493_1_alg».proof.Proof.Gen.KernelIdeal.Launch
import proofs.«127963_j3255585210493_1_alg».proof.Proof.Gen.KernelIdeal.Points
import proofs.«127963_j3255585210493_1_alg».proof.Proof.Gen.KernelIdeal.Frame
import proofs.«127963_j3255585210493_1_alg».proof.Proof.Gen.ReferenceIdeal
import proofs.«127963_j3255585210493_1_alg».proof.Proof.RefRun
import proofs.«127963_j3255585210493_1_alg».proof.Proof.RefRead
import proofs.«127963_j3255585210493_1_alg».proof.Proof.RunValue
import proofs.«127963_j3255585210493_1_alg».proof.Proof.Chain
import proofs.«127963_j3255585210493_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at the reference's last stage of the (agreeing) arguments. -/
theorem algebraic : Cert.algebraic_KernelIdeal_ReferenceIdeal := by
  intro m ρ m' ρ' _ hagree
  refine ⟨fun c => Cert.ReferenceIdeal.ReadP.val_main_v116 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.w13_v104 m ρ c), (h c).2⟩)
      (Cert.KernelIdeal.RunValue.run (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v116_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
